-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : IVec S2x200000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S10000x128 : Shape := ⟨2, ![10000, 128]⟩
abbrev S650000x128 : Shape := ⟨2, ![650000, 128]⟩
abbrev S1x128 : Shape := ⟨2, ![1, 128]⟩
abbrev S50000x64 : Shape := ⟨2, ![50000, 64]⟩
abbrev S10000x64 : Shape := ⟨2, ![10000, 64]⟩
abbrev S650000x64 : Shape := ⟨2, ![650000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S2000x64 : Shape := ⟨2, ![2000, 64]⟩
abbrev S2000x1 : Shape := ⟨2, ![2000, 1]⟩
abbrev S2000 : Shape := ⟨1, ![2000]⟩

abbrev nBuf : Space → Nat
  | .hbm => 129
  | .vmem => 23
  | .smem => 0
  | _ => 0

abbrev hbmTy0_0 (i : Nat) : BufTy := match i % 128 with
  | 0 => ⟨S50000x128, .f32⟩
  | 1 => ⟨S2x600000, .i32⟩
  | 2 => ⟨S2x200000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S50000, .i32⟩
  | 10 => ⟨S1x600000, .i32⟩
  | 11 => ⟨S600000, .i32⟩
  | 12 => ⟨S650000, .i32⟩
  | 13 => ⟨S1x600000, .i32⟩
  | 14 => ⟨S600000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S650000, .i32⟩
  | 32 => ⟨S650000, .i1⟩
  | 33 => ⟨S_, .i32⟩
  | 34 => ⟨S650000, .i32⟩
  | 35 => ⟨S650000, .i32⟩
  | 36 => ⟨S650000, .i32⟩
  | 37 => ⟨S650000x1, .i32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S50000x128, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x1, .f32⟩
  | 60 => ⟨S650000x128, .f32⟩
  | 61 => ⟨S650000x128, .f32⟩
  | 62 => ⟨S_, .f32⟩
  | 63 => ⟨S50000x128, .f32⟩
  | 64 => ⟨S650000x1, .i32⟩
  | 65 => ⟨S50000x128, .f32⟩
  | 66 => ⟨S1x128, .f32⟩
  | 67 => ⟨S50000x128, .f32⟩
  | 68 => ⟨S_, .i32⟩
  | 69 => ⟨S650000, .i32⟩
  | 70 => ⟨S650000, .i1⟩
  | 71 => ⟨S_, .i32⟩
  | 72 => ⟨S650000, .i32⟩
  | 73 => ⟨S650000, .i32⟩
  | 74 => ⟨S650000, .i32⟩
  | 75 => ⟨S650000x1, .i32⟩
  | 76 => ⟨S650000x128, .f32⟩
  | 77 => ⟨S650000x1, .f32⟩
  | 78 => ⟨S650000x128, .f32⟩
  | 79 => ⟨S650000x128, .f32⟩
  | 80 => ⟨S_, .f32⟩
  | 81 => ⟨S50000x128, .f32⟩
  | 82 => ⟨S650000x1, .i32⟩
  | 83 => ⟨S50000x128, .f32⟩
  | 84 => ⟨S1x128, .f32⟩
  | 85 => ⟨S50000x64, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000x64, .f32⟩
  | 95 => ⟨S650000x1, .f32⟩
  | 96 => ⟨S650000x64, .f32⟩
  | 97 => ⟨S650000x64, .f32⟩
  | 98 => ⟨S_, .f32⟩
  | 99 => ⟨S50000x64, .f32⟩
  | 100 => ⟨S650000x1, .i32⟩
  | 101 => ⟨S50000x64, .f32⟩
  | 102 => ⟨S1x64, .f32⟩
  | 103 => ⟨S50000x64, .f32⟩
  | 104 => ⟨S50000x64, .f32⟩
  | 105 => ⟨S1x200000, .i32⟩
  | 106 => ⟨S200000, .i32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S200000x64, .f32⟩
  | 116 => ⟨S1x200000, .i32⟩
  | 117 => ⟨S200000, .i32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x64, .f32⟩
  | 127 => ⟨S200000x1, .f32⟩
  | _ => ⟨S50000x128, .f32⟩

abbrev hbmTy0_1 (i : Nat) : BufTy := match i % 128 with
  | 0 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x64, .f32⟩
  | .local _ .vmem, ⟨15, _⟩ => ⟨S10000x64, .f32⟩
  | .local _ .vmem, ⟨16, _⟩ => ⟨S10000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x1, .f32⟩
  | .local _ .vmem, ⟨22, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_15 : Ref sig .tc := ⟨.hbm, 107, rfl⟩
abbrev main_v79 : Ref sig .tc := ⟨.hbm, 108, rfl⟩
abbrev main_v80 : Ref sig .tc := ⟨.hbm, 109, rfl⟩
abbrev main_c_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_17 : Ref sig .tc := ⟨.hbm, 118, rfl⟩
abbrev main_v88 : Ref sig .tc := ⟨.hbm, 119, rfl⟩
abbrev main_v89 : Ref sig .tc := ⟨.hbm, 120, rfl⟩
abbrev main_c_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S2000 : S2000x64.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S10000x128_S128x128_S10000x128_1_0_0_1_n_n_wf : DotDims.WF S10000x128 S128x128 S10000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S10000x128_S128x64_S10000x64_1_0_0_1_n_n_wf : DotDims.WF S10000x128 S128x64 S10000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S200000x64.size a
  hwx3_0 : ∀ i : grid3.Coords, EltTy.bits .f32 = 32 ∨ (Rect.block (s := S200000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S200000x64.size a
  hwx3_1 : ∀ i : grid3.Coords, EltTy.bits .f32 = 32 ∨ (Rect.block (s := S200000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S200000x1.size a
  hwx3_2 : ∀ i : grid3.Coords, EltTy.bits .f32 = 32 ∨ (Rect.block (s := S200000x1) S2000x1.size (cc3_transform_2 i) (hinb3_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v85) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S2000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x600000, .i32⟩
  | 2 => ⟨S2x200000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S50000, .i32⟩
  | 10 => ⟨S1x600000, .i32⟩
  | 11 => ⟨S600000, .i32⟩
  | 12 => ⟨S650000, .i32⟩
  | 13 => ⟨S1x600000, .i32⟩
  | 14 => ⟨S600000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S50000x128, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x1, .f32⟩
  | 60 => ⟨S650000x128, .f32⟩
  | 61 => ⟨S650000x128, .f32⟩
  | 62 => ⟨S_, .f32⟩
  | 63 => ⟨S50000x128, .f32⟩
  | 64 => ⟨S650000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S650000, .i32⟩
  | 75 => ⟨S650000, .i1⟩
  | 76 => ⟨S_, .i32⟩
  | 77 => ⟨S650000, .i32⟩
  | 78 => ⟨S650000, .i32⟩
  | 79 => ⟨S650000, .i32⟩
  | 80 => ⟨S650000x1, .i32⟩
  | 81 => ⟨S650000, .f32⟩
  | 82 => ⟨S_, .i32⟩
  | 83 => ⟨S650000, .i32⟩
  | 84 => ⟨S650000, .i1⟩
  | 85 => ⟨S_, .i32⟩
  | 86 => ⟨S650000, .i32⟩
  | 87 => ⟨S650000, .i32⟩
  | 88 => ⟨S650000, .i32⟩
  | 89 => ⟨S650000x1, .i32⟩
  | 90 => ⟨S650000, .f32⟩
  | 91 => ⟨S650000, .f32⟩
  | 92 => ⟨S_, .i32⟩
  | 93 => ⟨S650000, .i32⟩
  | 94 => ⟨S650000, .i1⟩
  | 95 => ⟨S_, .i32⟩
  | 96 => ⟨S650000, .i32⟩
  | 97 => ⟨S650000, .i32⟩
  | 98 => ⟨S650000, .i32⟩
  | 99 => ⟨S650000x1, .i32⟩
  | 100 => ⟨S650000x128, .f32⟩
  | 101 => ⟨S650000x1, .f32⟩
  | 102 => ⟨S650000x128, .f32⟩
  | 103 => ⟨S650000x128, .f32⟩
  | 104 => ⟨S_, .f32⟩
  | 105 => ⟨S50000x128, .f32⟩
  | 106 => ⟨S650000x1, .i32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x64, .f32⟩
  | 115 => ⟨S_, .i32⟩
  | 116 => ⟨S650000, .i32⟩
  | 117 => ⟨S650000, .i1⟩
  | 118 => ⟨S_, .i32⟩
  | 119 => ⟨S650000, .i32⟩
  | 120 => ⟨S650000, .i32⟩
  | 121 => ⟨S650000, .i32⟩
  | 122 => ⟨S650000x1, .i32⟩
  | 123 => ⟨S650000, .f32⟩
  | 124 => ⟨S_, .i32⟩
  | 125 => ⟨S650000, .i32⟩
  | 126 => ⟨S650000, .i1⟩
  | 127 => ⟨S_, .i32⟩
  | _ => ⟨S50000x128, .f32⟩

abbrev hbmTy0_1 (i : Nat) : BufTy := match i % 128 with
  | 0 => ⟨S650000, .i32⟩
  | 1 => ⟨S650000, .i32⟩
  | 2 => ⟨S650000, .i32⟩
  | 3 => ⟨S650000x1, .i32⟩
  | 4 => ⟨S650000, .f32⟩
  | 5 => ⟨S650000, .f32⟩
  | 6 => ⟨S_, .i32⟩
  | 7 => ⟨S650000, .i32⟩
  | 8 => ⟨S650000, .i1⟩
  | 9 => ⟨S_, .i32⟩
  | 10 => ⟨S650000, .i32⟩
  | 11 => ⟨S650000, .i32⟩
  | 12 => ⟨S650000, .i32⟩
  | 13 => ⟨S650000x1, .i32⟩
  | 14 => ⟨S650000x64, .f32⟩
  | 15 => ⟨S650000x1, .f32⟩
  | 16 => ⟨S650000x64, .f32⟩
  | 17 => ⟨S650000x64, .f32⟩
  | 18 => ⟨S_, .f32⟩
  | 19 => ⟨S50000x64, .f32⟩
  | 20 => ⟨S650000x1, .i32⟩
  | 21 => ⟨S50000x64, .f32⟩
  | 22 => ⟨S1x64, .f32⟩
  | 23 => ⟨S50000x64, .f32⟩
  | 24 => ⟨S50000x64, .f32⟩
  | 25 => ⟨S1x200000, .i32⟩
  | 26 => ⟨S200000, .i32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x64, .f32⟩
  | 36 => ⟨S1x200000, .i32⟩
  | 37 => ⟨S200000, .i32⟩
  | 38 => ⟨S_, .i32⟩
  | 39 => ⟨S200000, .i32⟩
  | 40 => ⟨S200000, .i1⟩
  | 41 => ⟨S_, .i32⟩
  | 42 => ⟨S200000, .i32⟩
  | 43 => ⟨S200000, .i32⟩
  | 44 => ⟨S200000, .i32⟩
  | 45 => ⟨S200000x1, .i32⟩
  | 46 => ⟨S200000x64, .f32⟩
  | 47 => ⟨S200000x64, .f32⟩
  | 48 => ⟨S_, .f32⟩
  | 49 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_v81 : Ref sig .tc := ⟨.hbm, 114, rfl⟩
abbrev main_c_16 : Ref sig .tc := ⟨.hbm, 115, rfl⟩
abbrev main_v82 : Ref sig .tc := ⟨.hbm, 116, rfl⟩
abbrev main_v83 : Ref sig .tc := ⟨.hbm, 117, rfl⟩
abbrev main_c_17 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_18 : Ref sig .tc := ⟨.hbm, 124, rfl⟩
abbrev main_v89 : Ref sig .tc := ⟨.hbm, 125, rfl⟩
abbrev main_v90 : Ref sig .tc := ⟨.hbm, 126, rfl⟩
abbrev main_c_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_20 : Ref sig .tc := ⟨.hbm, 134, rfl⟩
abbrev main_v97 : Ref sig .tc := ⟨.hbm, 135, rfl⟩
abbrev main_v98 : Ref sig .tc := ⟨.hbm, 136, rfl⟩
abbrev main_c_21 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_23 : Ref sig .tc := ⟨.hbm, 155, rfl⟩
abbrev main_v115 : Ref sig .tc := ⟨.hbm, 156, rfl⟩
abbrev main_v116 : Ref sig .tc := ⟨.hbm, 157, rfl⟩
abbrev main_c_24 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_c_25 : Ref sig .tc := ⟨.hbm, 166, rfl⟩
abbrev main_v124 : Ref sig .tc := ⟨.hbm, 167, rfl⟩
abbrev main_v125 : Ref sig .tc := ⟨.hbm, 168, rfl⟩
abbrev main_c_26 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_27 : Ref sig .tc := ⟨.hbm, 176, rfl⟩
abbrev main_v132 : Ref sig .tc := ⟨.hbm, 177, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  scatter_S50000_S650000x1_S650000_n_0_0_1_wf : ScatterDims.WF S50000 S650000x1 S650000 [] [0] [0] 1
  dot_S50000x128_S128x128_S50000x128_1_0_0_1_n_n_wf : DotDims.WF S50000x128 S128x128 S50000x128 [1] [0] [0] [1] [] []
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  gather_S50000x64_S200000x1_S200000x64_1_0_n_n_0_1_164_wf : GatherDims.WF S50000x64 S200000x1 S200000x64 [1] [0] [] [0] [] 1 ![1, 64]

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.KernelRun.lean ====
/-
  The idealized kernel's run with its result named. The program is four pipelined regions among stretches of host
  operations; the contents of the core's buffers at each boundary are a fold from the launch memory (a stretch
  applies its operations, a region replaces its output array by what its write-backs leave). Every weakly fair
  execution terminates with the result buffer at the last boundary's contents and the arguments as launched.
-/
import proofs.«111414_j50766513439535_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer holding the
    last boundary's contents at it, and every argument array as launched. -/
theorem run_named : θ_run defs (onTc (τ := τ) (main (F := F))) ⟨m, fun _ => 0, ρ⟩ (fun r => ∀ c : Dev nD,
      r.2.mem ((c.tc : Thread nD τ).loc main_v96) = W11 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v96 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«111414_j50766513439535_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«111414_j50766513439535_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.Region0.lean ====
/-
  The first layer's linear map. Each of the five grid points multiplies a block of 10000 consecutive rows of the
  node features by the whole weight matrix and writes the same rows of the output. The blocks tile the rows, so the
  output array ends as the product of the whole feature array with the weight matrix.
-/
import proofs.«111414_j50766513439535_1_alg».proof.Proof.Gen.KernelIdeal.Frame
import proofs.«111414_j50766513439535_1_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open Cert.Lib.MatProd Cert.Lib.RowBlocks

namespace Cert.KernelIdeal.Layers

open Cert.KernelIdeal Cert.KernelIdeal.Gen

variable (V : (c : Dev nD) → (b : Ref sig .tc) → Buf (Elt Ideal) ((c : Thread nD τ).loc b))

/-- The block index maps over the grid: the feature and output windows sit at block row t, the weights at the one
    block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value is the product of its two loaded blocks (rounding to bf16 is the identity on the
    extended reals, and the accumulator starts at zero). -/
theorem pay0_eq (x0 : Vec Ideal S10000x128 .f32) (x1 : Vec Ideal S128x128 .f32) :
    k0_pay1 x0 x1 = matProd x0 x1 := by
  unfold k0_pay1
  exact matmul_zero_eq_matProd dot_S10000x128_S128x128_S10000x128_1_0_0_1_n_n rfl rfl rfl rfl rfl rfl none _ _

/-- The feature window's block at point t holds rows 10000 t … 10000 t + 9999 of the feature array. -/
theorem iblk0_0_apply (c : Dev nD) (t : Fin cfg0.N) (y : S10000x128.Idx) (i : S50000x128.Idx)
    (h0 : (i 0).val = t.val * 10000 + (y 0).val) (h1 : (i 1).val = (y 1).val) :
    (iblk0 V c 0 t : Vec Ideal S10000x128 .f32) y = (V c main_arg0 : S50000x128.Idx → EReal) i := by
  obtain ⟨e0, e1, -⟩ := idx0 t
  unfold iblk0
  rw [View.read_apply]
  show V c main_arg0 _ = V c main_arg0 i
  congr 1
  funext a; apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight window's block is the whole weight matrix at every point. -/
theorem iblk0_1_eq (c : Dev nD) (t : Fin cfg0.N) :
    (iblk0 V c 1 t : Vec Ideal S128x128 .f32) = (V c main_arg3 : S128x128.Idx → EReal) := by
  obtain ⟨-, -, e2, e3, -⟩ := idx0 t
  funext y
  unfold iblk0
  rw [View.read_apply]
  show V c main_arg3 _ = V c main_arg3 y
  congr 1
  funext a; apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is block t of the product of the whole arrays. -/
theorem flushed0 (c : Dev nD) (t : Fin cfg0.N) :
    (dat0 V c).flushed 2 t = ((cfg0.win 2).blk t).view.read (Elt Ideal)
      (matProd (V c main_arg0 : S50000x128.Idx → EReal) (V c main_arg3 : S128x128.Idx → EReal)) := by
  show (cfg0.win 2).cut (grid0.coords t) ((dat0 V c).after 2 t) = _
  rw [after0_2]
  unfold out0_2
  rw [View.canon_unit_zero zero_offset2]
  simp only [View.ld_unit_zero (S := S10000x128) zero_offset2, View.ld_unit_zero (S := S128x128) zero_offset2]
  rw [pay0_eq, iblk0_1_eq]
  obtain ⟨-, -, -, -, e4, e5⟩ := idx0 t
  funext j
  show matProd (iblk0 V c 0 t : Vec Ideal S10000x128 .f32) (V c main_arg3 : S128x128.Idx → EReal) j
    = matProd (V c main_arg0 : S50000x128.Idx → EReal) (V c main_arg3 : S128x128.Idx → EReal) (((cfg0.win 2).blk t).view.emb j)
  refine matProd_rows _ _ _ j _ (fun k => iblk0_0_apply V c t _ _ ?_ rfl) ?_
  · show win0_2.index t (0 : Fin 2) * 10000 + 1 * (j 0).val = t.val * 10000 + (j 0).val
    rw [e4]; omega
  · show (j 1).val = win0_2.index t (1 : Fin 2) * 128 + 1 * (j 1).val
    rw [e5]; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Row r of the output lies in the block of point r / 10000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 128 ≤ (i 1).val ∧ (i 1).val < win0_2.index t (1 : Fin 2) * 128 + 128
    rw [e5]; omega

/-- After the region its output array is the product of the feature array with the weight matrix, as the region
    found them. -/
theorem region0_value (c : Dev nD) :
    (dat0 V c).arrAt 2 cfg0.N
      = matProd (V c main_arg0 : S50000x128.Idx → EReal) (V c main_arg3 : S128x128.Idx → EReal) :=
  (dat0 V c).arrAt_eq_of_cover 2 _ (fun t _ => flushed0 V c t) cover0

end Cert.KernelIdeal.Layers

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«111414_j50766513439535_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«111414_j50766513439535_1_alg».proof.Proof.LibBlockReads
import proofs.«111414_j50766513439535_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.Region1.lean ====
/-
  The second layer's linear map, fused with the first layer's bias and activation. Each of the five grid points takes a
  block of 10000 consecutive rows of the first layer's aggregated features, adds the bias row, clamps below at zero and
  multiplies by the whole weight matrix. The blocks tile the rows, so the output array ends as that map of the whole array.
-/
import proofs.«111414_j50766513439535_1_alg».proof.Proof.Gen.KernelIdeal.Frame
import proofs.«111414_j50766513439535_1_alg».proof.Proof.LibRowBlocks
import proofs.«111414_j50766513439535_1_alg».proof.Proof.LibBiasRelu
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open Cert.Lib.MatProd Cert.Lib.RowBlocks Cert.Lib.BiasRelu

namespace Cert.KernelIdeal.Layers

open Cert.KernelIdeal Cert.KernelIdeal.Gen

variable (V : (c : Dev nD) → (b : Ref sig .tc) → Buf (Elt Ideal) ((c : Thread nD τ).loc b))

/-- The block index maps over the grid: the input and output windows sit at block row t, the bias row and the weights
    at their one block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored value: the bias row added to the block, clamped below at zero, times the weights (rounding to
    bf16 is the identity on the extended reals, and the accumulator starts at zero). -/
theorem pay1_eq (x0 : Vec Ideal S10000x128 .f32) (x2 : Vec Ideal S1x128 .f32) (x9 : Vec Ideal S128x128 .f32) :
    k1_pay1 x0 x2 x9 = matProd (biasRelu x0 x2) x9 := by
  unfold k1_pay1
  refine (matmul_zero_eq_matProd dot_S10000x128_S128x128_S10000x128_1_0_0_1_n_n rfl rfl rfl rfl rfl rfl none _ _).trans ?_
  exact congrArg (fun z => matProd z x9) (body_eq x0 x2 _ _ _)

/-- The input window's block at point t holds rows 10000 t … 10000 t + 9999 of the aggregated features. -/
theorem iblk1_0_apply (c : Dev nD) (t : Fin cfg1.N) (y : S10000x128.Idx) (i : S50000x128.Idx)
    (h0 : (i 0).val = t.val * 10000 + (y 0).val) (h1 : (i 1).val = (y 1).val) :
    (iblk1 V c 0 t : Vec Ideal S10000x128 .f32) y = (V c main_v43 : S50000x128.Idx → EReal) i := by
  obtain ⟨e0, e1, -⟩ := idx1 t
  unfold iblk1
  rw [View.read_apply]
  show V c main_v43 _ = V c main_v43 i
  congr 1
  funext a; apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The bias window's block is the whole bias row at every point. -/
theorem iblk1_1_eq (c : Dev nD) (t : Fin cfg1.N) :
    (iblk1 V c 1 t : Vec Ideal S1x128 .f32) = (V c main_v44 : S1x128.Idx → EReal) := by
  obtain ⟨-, -, e2, e3, -⟩ := idx1 t
  funext y
  unfold iblk1
  rw [View.read_apply]
  show V c main_v44 _ = V c main_v44 y
  congr 1
  funext a; apply Fin.ext
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- The weight window's block is the whole weight matrix at every point. -/
theorem iblk1_2_eq (c : Dev nD) (t : Fin cfg1.N) :
    (iblk1 V c 2 t : Vec Ideal S128x128 .f32) = (V c main_arg5 : S128x128.Idx → EReal) := by
  obtain ⟨-, -, -, -, e4, e5, -⟩ := idx1 t
  funext y
  unfold iblk1
  rw [View.read_apply]
  show V c main_arg5 _ = V c main_arg5 y
  congr 1
  funext a; apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- What point t writes back is block t of the layer's linear map of the whole arrays. -/
theorem flushed1 (c : Dev nD) (t : Fin cfg1.N) :
    (dat1 V c).flushed 3 t = ((cfg1.win 3).blk t).view.read (Elt Ideal)
      (matProd (biasRelu (V c main_v43 : S50000x128.Idx → EReal) (V c main_v44 : S1x128.Idx → EReal))
        (V c main_arg5 : S128x128.Idx → EReal)) := by
  show (cfg1.win 3).cut (grid1.coords t) ((dat1 V c).after 3 t) = _
  rw [after1_3]
  unfold out1_3
  rw [View.canon_unit_zero zero_offset2]
  simp only [View.ld_unit_zero (S := S10000x128) zero_offset2, View.ld_unit_zero (S := S1x128) zero_offset2,
    View.ld_unit_zero (S := S128x128) zero_offset2]
  rw [pay1_eq, iblk1_1_eq, iblk1_2_eq]
  obtain ⟨-, -, -, -, -, -, e6, e7⟩ := idx1 t
  funext j
  show matProd (biasRelu (iblk1 V c 0 t : Vec Ideal S10000x128 .f32) (V c main_v44 : S1x128.Idx → EReal))
      (V c main_arg5 : S128x128.Idx → EReal) j
    = matProd (biasRelu (V c main_v43 : S50000x128.Idx → EReal) (V c main_v44 : S1x128.Idx → EReal))
      (V c main_arg5 : S128x128.Idx → EReal) (((cfg1.win 3).blk t).view.emb j)
  refine matProd_rows _ _ _ j _ (fun k => biasRelu_rows _ _ _ _ _ k (iblk1_0_apply V c t _ _ ?_ rfl)) ?_
  · show win1_3.index t (0 : Fin 2) * 10000 + 1 * (j 0).val = t.val * 10000 + (j 0).val
    rw [e6]; omega
  · show (j 1).val = win1_3.index t (1 : Fin 2) * 128 + 1 * (j 1).val
    rw [e7]; omega

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v45).slice (win1_3.rect t)).set ↔ _
  rw [View.set_slice_whole, Rect.mem_set_unit]
  exact Iff.rfl

/-- Row r of the output lies in the block of point r / 10000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, -, -, e6, e7⟩ := idx1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    rw [e6, ht]; omega
  | ⟨1, _⟩ =>
    show win1_3.index t (1 : Fin 2) * 128 ≤ (i 1).val ∧ (i 1).val < win1_3.index t (1 : Fin 2) * 128 + 128
    rw [e7]; omega

/-- After the region its output array is the layer's linear map of the arrays the region found: the bias row added to
    every row of the aggregated features, clamped below at zero, times the weight matrix. -/
theorem region1_value (c : Dev nD) :
    (dat1 V c).arrAt 3 cfg1.N
      = matProd (biasRelu (V c main_v43 : S50000x128.Idx → EReal) (V c main_v44 : S1x128.Idx → EReal))
          (V c main_arg5 : S128x128.Idx → EReal) :=
  (dat1 V c).arrAt_eq_of_cover 3 _ (fun t _ => flushed1 V c t) cover1

end Cert.KernelIdeal.Layers

end
-- ==== Proof.Region2.lean ====
/-
  The third layer's linear map, fused with the second layer's bias and activation. Each of the five grid points takes a
  block of 10000 consecutive rows of the second layer's aggregated features, adds the bias row, clamps below at zero and
  multiplies by the whole 128×64 weight matrix. The blocks tile the rows, so the output array ends as that map of the whole array.
-/
import proofs.«111414_j50766513439535_1_alg».proof.Proof.Gen.KernelIdeal.Frame
import proofs.«111414_j50766513439535_1_alg».proof.Proof.LibRowBlocks
import proofs.«111414_j50766513439535_1_alg».proof.Proof.LibBiasRelu
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open Cert.Lib.MatProd Cert.Lib.RowBlocks Cert.Lib.BiasRelu

namespace Cert.KernelIdeal.Layers

open Cert.KernelIdeal Cert.KernelIdeal.Gen

variable (V : (c : Dev nD) → (b : Ref sig .tc) → Buf (Elt Ideal) ((c : Thread nD τ).loc b))

/-- The block index maps over the grid: the input and output windows sit at block row t, the bias row and the weights
    at their one block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's stored value: the bias row added to the block, clamped below at zero, times the weights (rounding to
    bf16 is the identity on the extended reals, and the accumulator starts at zero). -/
theorem pay2_eq (x0 : Vec Ideal S10000x128 .f32) (x2 : Vec Ideal S1x128 .f32) (x9 : Vec Ideal S128x64 .f32) :
    k2_pay1 x0 x2 x9 = matProd (biasRelu x0 x2) x9 := by
  unfold k2_pay1
  refine (matmul_zero_eq_matProd dot_S10000x128_S128x64_S10000x64_1_0_0_1_n_n rfl rfl rfl rfl rfl rfl none _ _).trans ?_
  exact congrArg (fun z => matProd z x9) (body_eq x0 x2 _ _ _)

/-- The input window's block at point t holds rows 10000 t … 10000 t + 9999 of the aggregated features. -/
theorem iblk2_0_apply (c : Dev nD) (t : Fin cfg2.N) (y : S10000x128.Idx) (i : S50000x128.Idx)
    (h0 : (i 0).val = t.val * 10000 + (y 0).val) (h1 : (i 1).val = (y 1).val) :
    (iblk2 V c 0 t : Vec Ideal S10000x128 .f32) y = (V c main_v58 : S50000x128.Idx → EReal) i := by
  obtain ⟨e0, e1, -⟩ := idx2 t
  unfold iblk2
  rw [View.read_apply]
  show V c main_v58 _ = V c main_v58 i
  congr 1
  funext a; apply Fin.ext
  match a with
  | ⟨0, _⟩ => show win2_0.index t (0 : Fin 2) * 10000 + 1 * (y 0).val = (i 0).val; rw [e0, h0]; omega
  | ⟨1, _⟩ => show win2_0.index t (1 : Fin 2) * 128 + 1 * (y 1).val = (i 1).val; rw [e1, h1]; omega

/-- The bias window's block is the whole bias row at every point. -/
theorem iblk2_1_eq (c : Dev nD) (t : Fin cfg2.N) :
    (iblk2 V c 1 t : Vec Ideal S1x128 .f32) = (V c main_v59 : S1x128.Idx → EReal) := by
  obtain ⟨-, -, e2, e3, -⟩ := idx2 t
  funext y
  unfold iblk2
  rw [View.read_apply]
  show V c main_v59 _ = V c main_v59 y
  congr 1
  funext a; apply Fin.ext
  match a with
  | ⟨0, _⟩ => show win2_1.index t (0 : Fin 2) * 1 + 1 * (y 0).val = (y 0).val; rw [e2]; omega
  | ⟨1, _⟩ => show win2_1.index t (1 : Fin 2) * 128 + 1 * (y 1).val = (y 1).val; rw [e3]; omega

/-- The weight window's block is the whole weight matrix at every point. -/
theorem iblk2_2_eq (c : Dev nD) (t : Fin cfg2.N) :
    (iblk2 V c 2 t : Vec Ideal S128x64 .f32) = (V c main_arg7 : S128x64.Idx → EReal) := by
  obtain ⟨-, -, -, -, e4, e5, -⟩ := idx2 t
  funext y
  unfold iblk2
  rw [View.read_apply]
  show V c main_arg7 _ = V c main_arg7 y
  congr 1
  funext a; apply Fin.ext
  match a with
  | ⟨0, _⟩ => show win2_2.index t (0 : Fin 2) * 128 + 1 * (y 0).val = (y 0).val; rw [e4]; omega
  | ⟨1, _⟩ => show win2_2.index t (1 : Fin 2) * 64 + 1 * (y 1).val = (y 1).val; rw [e5]; omega

/-- What point t writes back is block t of the layer's linear map of the whole arrays. -/
theorem flushed2 (c : Dev nD) (t : Fin cfg2.N) :
    (dat2 V c).flushed 3 t = ((cfg2.win 3).blk t).view.read (Elt Ideal)
      (matProd (biasRelu (V c main_v58 : S50000x128.Idx → EReal) (V c main_v59 : S1x128.Idx → EReal))
        (V c main_arg7 : S128x64.Idx → EReal)) := by
  show (cfg2.win 3).cut (grid2.coords t) ((dat2 V c).after 3 t) = _
  rw [after2_3]
  unfold out2_3
  rw [View.canon_unit_zero zero_offset2]
  simp only [View.ld_unit_zero (S := S10000x128) zero_offset2, View.ld_unit_zero (S := S1x128) zero_offset2,
    View.ld_unit_zero (S := S128x64) zero_offset2]
  rw [pay2_eq, iblk2_1_eq, iblk2_2_eq]
  obtain ⟨-, -, -, -, -, -, e6, e7⟩ := idx2 t
  funext j
  show matProd (biasRelu (iblk2 V c 0 t : Vec Ideal S10000x128 .f32) (V c main_v59 : S1x128.Idx → EReal))
      (V c main_arg7 : S128x64.Idx → EReal) j
    = matProd (biasRelu (V c main_v58 : S50000x128.Idx → EReal) (V c main_v59 : S1x128.Idx → EReal))
      (V c main_arg7 : S128x64.Idx → EReal) (((cfg2.win 3).blk t).view.emb j)
  refine matProd_rows _ _ _ j _ (fun k => biasRelu_rows _ _ _ _ _ k (iblk2_0_apply V c t _ _ ?_ rfl)) ?_
  · show win2_3.index t (0 : Fin 2) * 10000 + 1 * (j 0).val = t.val * 10000 + (j 0).val
    rw [e6]; omega
  · show (j 1).val = win2_3.index t (1 : Fin 2) * 64 + 1 * (j 1).val
    rw [e7]; omega

/-- An index of the output array is in point t's block iff each coordinate is in the block's range on its axis. -/
theorem mem_blk2 (t : Fin cfg2.N) (i : S50000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v60).slice (win2_3.rect t)).set ↔ _
  rw [View.set_slice_whole, Rect.mem_set_unit]
  exact Iff.rfl

/-- Row r of the output lies in the block of point r / 10000. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 5 := N_2
  obtain ⟨t, ht⟩ : ∃ t : Fin cfg2.N, t.val = (i 0).val / 10000 := ⟨⟨(i 0).val / 10000, by rw [hN]; omega⟩, rfl⟩
  obtain ⟨-, -, -, -, -, -, e6, e7⟩ := idx2 t
  refine ⟨t, flush2_3 t, ?_⟩
  rw [mem_blk2]
  intro a
  match a with
  | ⟨0, _⟩ =>
    show win2_3.index t (0 : Fin 2) * 10000 ≤ (i 0).val ∧ (i 0).val < win2_3.index t (0 : Fin 2) * 10000 + 10000
    rw [e6, ht]; omega
  | ⟨1, _⟩ =>
    show win2_3.index t (1 : Fin 2) * 64 ≤ (i 1).val ∧ (i 1).val < win2_3.index t (1 : Fin 2) * 64 + 64
    rw [e7]; omega

/-- After the region its output array is the layer's linear map of the arrays the region found: the bias row added to
    every row of the aggregated features, clamped below at zero, times the weight matrix. -/
theorem region2_value (c : Dev nD) :
    (dat2 V c).arrAt 3 cfg2.N
      = matProd (biasRelu (V c main_v58 : S50000x128.Idx → EReal) (V c main_v59 : S1x128.Idx → EReal))
          (V c main_arg7 : S128x64.Idx → EReal) :=
  (dat2 V c).arrAt_eq_of_cover 3 _ (fun t _ => flushed2 V c t) cover2

end Cert.KernelIdeal.Layers

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«111414_j50766513439535_1_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.DecodeBlocks.lean ====
/-
  Region 3 of the program: the row-by-row inner product of two 200000×64 arrays. The region runs over 100 grid points.
  Point t takes rows 2000·t … 2000·t + 1999 of each array as a 2000×64 block, multiplies the two blocks entry by entry,
  sums each row of the product, and writes the 2000 sums back as rows 2000·t … 2000·t + 1999 of a 200000×1 column.
  A block's entry (p, k) is the array's entry (2000·t + p, k): on each axis the array coordinate is the block index times
  the block's size plus the coordinate inside the block. The 100 blocks of the column tile it — row r lies in the block
  of point r / 2000 — so after the region the column holds, at every row r, the sum over k of the products of the two
  arrays' entries (r, k), whatever the column held before.
-/
import proofs.«111414_j50766513439535_1_alg».proof.Proof.Gen.KernelIdeal.Frame
import Idealize.ShloMosaic.Lib.Pipeline.Value
import Idealize.ShloMosaic.Lib.ValueIdx
import Idealize.ShloMosaic.PureOps.Ideal.Laws
import proofs.«111414_j50766513439535_1_alg».proof.Proof.LibRowReductions
import proofs.«111414_j50766513439535_1_alg».proof.Proof.LibHostRows

noncomputable section

open scoped BigOperators

namespace Cert.KernelIdeal.Decode

open Cert.KernelIdeal Cert.KernelIdeal.Gen Idealize.ShloMosaic Idealize.ShloMosaic.TcCoe Idealize.ShloMosaic.ValueIdx
open Idealize.SL.Sem
open Idealize.ShloMosaic.Pipeline (Dat)

/-- Row by row, the inner product of two 200000×64 arrays, as a 200000×1 column. -/
def rowDot (a b : S200000x64.Idx → EReal) : S200000x1.Idx → EReal :=
  fun i => ∑ k : Fin 64, a (ix2 (⟨(i 0).val, (i 0).isLt⟩ : Fin 200000) k) * b (ix2 (⟨(i 0).val, (i 0).isLt⟩ : Fin 200000) k)

/-- The zero offsets of a whole-block access, however they are spelt. -/
theorem zero_offsets : (![0, 0] : Fin 2 → Nat) = fun _ => 0 := funext fun a => by fin_cases a <;> rfl

/-- What one point stores, read at row p of its 2000×1 block: the sum over k of the products of the two loaded
    2000×64 blocks' entries (p, k). -/
theorem stored_apply (x0 x1 : Vec Ideal S2000x64 .f32) (p : Fin 2000) :
    k3_pay1 (F := Ideal) x0 x1 (ix2 p 0) = ∑ k : Fin 64, x0 (ix2 p k) * x1 (ix2 p k) := by
  unfold k3_pay1
  refine (Cert.Lib.RowReductions.shapeCast_col_apply _ _ p).trans ?_
  refine (Cert.Lib.RowReductions.rowsum_apply _ _ _ _ _ p).trans ?_
  refine Finset.sum_congr rfl fun k _ => ?_
  rw [mulf_apply, shapeCast_self, shapeCast_self]

/-- The block index of every window at point t is (t, 0): decided over the 100 points. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- The first input's block at point t, at (p, k), is the first array at (2000·t + p, k). -/
theorem first_block_apply (c : Dev nD) (t : Fin cfg3.N) (x : S2000x64.Idx) (i : S200000x64.Idx)
    (h0 : (i 0).val = t.val * 2000 + (x 0).val) (h1 : (i 1).val = (x 1).val) :
    (iblk3 (F := Ideal) V c 0 t : Vec Ideal S2000x64 .f32) x = (V c main_v85 : S200000x64.Idx → EReal) i := by
  obtain ⟨e0, e1, -⟩ := block_index t
  unfold iblk3
  rw [View.read_apply]
  show V c main_v85 _ = V c main_v85 _
  congr 1
  funext a
  apply Fin.ext
  match a with
  | ⟨0, _⟩ => show win3_0.index t 0 * 2000 + 1 * (x 0).val = (i 0).val; rw [e0, h0]; omega
  | ⟨1, _⟩ => show win3_0.index t 1 * 64 + 1 * (x 1).val = (i 1).val; rw [e1, h1]; omega

/-- The second input's block at point t, at (p, k), is the second array at (2000·t + p, k). -/
theorem second_block_apply (c : Dev nD) (t : Fin cfg3.N) (x : S2000x64.Idx) (i : S200000x64.Idx)
    (h0 : (i 0).val = t.val * 2000 + (x 0).val) (h1 : (i 1).val = (x 1).val) :
    (iblk3 (F := Ideal) V c 1 t : Vec Ideal S2000x64 .f32) x = (V c main_v94 : S200000x64.Idx → EReal) i := by
  obtain ⟨-, -, e0, e1, -⟩ := block_index t
  unfold iblk3
  rw [View.read_apply]
  show V c main_v94 _ = V c main_v94 _
  congr 1
  funext a
  apply Fin.ext
  match a with
  | ⟨0, _⟩ => show win3_1.index t 0 * 2000 + 1 * (x 0).val = (i 0).val; rw [e0, h0]; omega
  | ⟨1, _⟩ => show win3_1.index t 1 * 64 + 1 * (x 1).val = (i 1).val; rw [e1, h1]; omega

/-- The value point t stores at row p of its block is the inner product of rows 2000·t + p of the two arrays: the
    stored sum runs over the products of the two input blocks' entries (p, k), and these are the arrays' entries
    (2000·t + p, k). -/
theorem point_value (c : Dev nD) (t : Fin cfg3.N) (y : S2000x1.Idx) (i : S200000x1.Idx)
    (hi : (i 0).val = t.val * 2000 + (y 0).val) :
    k3_pay1 (F := Ideal) (iblk3 V c 0 t) (iblk3 V c 1 t) y
      = rowDot (V c main_v85 : S200000x64.Idx → EReal) (V c main_v94 : S200000x64.Idx → EReal) i := by
  obtain ⟨p, q, rfl⟩ : ∃ (p : Fin 2000) (q : Fin 1), y = ix2 p q := ⟨y 0, y 1, eq_ix2 y⟩
  obtain rfl : q = 0 := Subsingleton.elim _ _
  refine (stored_apply _ _ p).trans ?_
  unfold rowDot
  refine Finset.sum_congr rfl fun k _ => ?_
  exact congrArg₂ (· * ·) (first_block_apply V c t (ix2 p k) _ hi rfl) (second_block_apply V c t (ix2 p k) _ hi rfl)

/-- What point t writes back is block t of the row-by-row inner product of the two arrays as the region finds them. -/
theorem flushed_eq (c : Dev nD) (t : Fin cfg3.N) :
    (dat3 (F := Ideal) V c).flushed 2 t
      = ((cfg3.win 2).blk t).view.read (Elt Ideal) (rowDot (V c main_v85) (V c main_v94)) := by
  show (cfg3.win 2).cut (grid3.coords t) ((dat3 V c).after 2 t) = _
  rw [after3_2]
  unfold out3_2
  rw [View.canon_unit_zero zero_offsets]
  simp only [View.ld_unit_zero (S := S2000x64) zero_offsets]
  obtain ⟨-, -, -, -, e4, -⟩ := block_index t
  funext y
  show k3_pay1 (iblk3 V c 0 t) (iblk3 V c 1 t) ((cfg3.win 2).xinj (grid3.coords t) y)
    = rowDot (V c main_v85) (V c main_v94) (((cfg3.win 2).blk t).view.emb y)
  refine point_value V c t _ _ ?_
  show win3_2.index t (0 : Fin 2) * 2000 + 1 * (y 0).val = t.val * 2000 + (y 0).val
  rw [e4]; omega

/-- A row of the column is in point t's block iff each coordinate is in the block's range on its axis. -/
theorem mem_block (t : Fin cfg3.N) (i : S200000x1.Idx) :
    i ∈ ((cfg3.win 2).blk t).view.set ↔ ∀ a : Fin 2, win3_2.index t a * S2000x1.size a ≤ (i a).val
      ∧ (i a).val < win3_2.index t a * S2000x1.size a + S2000x1.size a := by
  show i ∈ ((View.whole main_v95).slice (win3_2.rect t)).set ↔ _
  rw [View.set_slice_whole, Rect.mem_set_unit]
  exact Iff.rfl

/-- The blocks tile the column: row r is in the block of point r / 2000, and every point writes its block back. -/
theorem covered (i : S200000x1.Idx) :
    ∃ t : Fin cfg3.N, (cfg3.win 2).flush t = true ∧ i ∈ ((cfg3.win 2).blk t).view.set := by
  have hi0 : (i 0).val < 200000 := (i 0).isLt
  have hi1 : (i 1).val < 1 := (i 1).isLt
  have hN : grid3.N = 100 := N_3
  have ht : (i 0).val / 2000 < grid3.N := by rw [hN]; omega
  obtain ⟨-, -, -, -, e4, e5⟩ := block_index ⟨(i 0).val / 2000, ht⟩
  refine ⟨⟨(i 0).val / 2000, ht⟩, flush3_2 _, ?_⟩
  rw [mem_block]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 1 ≤ (i 1).val
      ∧ (i 1).val < win3_2.index ⟨(i 0).val / 2000, ht⟩ (1 : Fin 2) * 1 + 1
    rw [e5]; omega

/-- After the region the column holds the row-by-row inner product of the two arrays as the region found them. -/
theorem region3_value (c : Dev nD) :
    (dat3 (F := Ideal) V c).arrAt 2 cfg3.N = rowDot (V c main_v85) (V c main_v94) :=
  (dat3 (F := Ideal) V c).arrAt_eq_of_cover 2 (rowDot (V c main_v85) (V c main_v94))
    (fun t _ => flushed_eq V c t) covered

end

end Cert.KernelIdeal.Decode

end
-- ==== Proof.DecodeReference.lean ====
/-
  The reference's last operation, read as mathematics. The reference multiplies two 200000×64 arrays entry by entry and
  sums each row of the product, starting every row's sum from the zero word. At row r this is 0 plus the sum over k of
  the products of the two arrays' entries (r, k): the inner product of the two rows r. The column of row inner products,
  with its one-entry second axis dropped, is a vector of 200000 entries whose entry r is the column's entry (r, 0), the
  same sum. So the two sides are one function of the two arrays.
-/
import proofs.«111414_j50766513439535_1_alg».proof.Proof.DecodeBlocks
import proofs.«111414_j50766513439535_1_alg».proof.Proof.LibHostRows
import proofs.«111414_j50766513439535_1_alg».proof.Proof.LibRowReductions
import proofs.«111414_j50766513439535_1_alg».proof.ReferenceIdeal

noncomputable section

open scoped BigOperators

namespace Cert.KernelIdeal.Decode

open Cert.KernelIdeal Cert.KernelIdeal.Gen Idealize.ShloMosaic Idealize.ShloMosaic.ValueIdx

/-- An n×1 column viewed as a vector of n entries reads at p the column's entry (p, 0). -/
theorem shapeCast_uncol_apply {α : Type} {n : Nat} (x : (⟨2, ![n, 1]⟩ : Shape).Idx → α)
    (h : (⟨2, ![n, 1]⟩ : Shape).ShapeCasts ⟨1, ![n]⟩) (p : Fin n) :
    shapeCast ⟨1, ![n]⟩ x h (ix1 p) = x (ix2 p 0) := by
  refine shapeCast_apply x h _ _ ?_
  rw [Shape.rowMajor_val_one, Shape.rowMajor_val_two]
  show p.val * 1 + 0 = p.val
  omega

/-- The reference's sum along each row of the entrywise product, started from the zero word, is the column of row inner products re-shaped to a vector. -/
theorem host_rowDot [Cert.ReferenceIdeal.Facts₀] (a b : S200000x64.Idx → EReal) :
    Host.reduceAdd (F := Ideal) (mulf (F := Ideal) (s := Cert.ReferenceIdeal.S200000x64) (φ := .f32) a b)
        (constant (F := Ideal) Cert.ReferenceIdeal.S_ .f32 0x00000000#32)
        Cert.ReferenceIdeal.Facts₀.reducesTo_S200000x64_S200000_d1 Cert.ReferenceIdeal.Facts₀.h_S_
      = shapeCast S200000 (rowDot a b) Facts₀.shapeCasts_S200000x1_S200000 := by
  funext i
  obtain ⟨p, rfl⟩ : ∃ p : Fin 200000, i = ix1 p := ⟨i 0, eq_ix1 i⟩
  refine (Cert.Lib.HostRows.host_rowsum_apply _ _ _ _ p).trans ?_
  rw [constant_apply, Ideal.ofBits_zero_f32, zero_add]
  refine Eq.trans ?_ (shapeCast_uncol_apply (rowDot a b) _ p).symm
  exact Finset.sum_congr rfl fun k _ => rfl

end Cert.KernelIdeal.Decode

end
-- ==== Proof.Carry.lean ====
/-
  What the program's boundaries keep. The buffer contents at the boundaries between the stretches of host operations
  and the regions are a fold from the launch memory; a buffer that a stretch's operations do not write, and that is
  not an array of a region, holds after it what it held before. Here: the edge arrays (sources, targets, edge
  weights), computed before the first region, reach every later stretch unchanged, and each argument array reaches
  the boundary where it is read with its launch contents.
-/
import proofs.«111414_j50766513439535_1_alg».proof.Proof.Gen.KernelIdeal.Frame

set_option maxRecDepth 16384

noncomputable section

open Idealize.ShloMosaic Idealize.ShloMosaic.TcCoe Idealize.SL.Sem

namespace Cert.KernelIdeal.Boundaries

open Cert.KernelIdeal Cert.KernelIdeal.Gen

variable {F : FTy → Type} [FloatOps F]
variable (m : (ℓ : Loc nD τ sig) → Buf (Elt F) ℓ) (ρ : Dev nD → PrngReg)

/-- One stretch back: no operation of the stretch writes the buffer. -/
local macro "host_step" : tactic => `(tactic|
  refine (StableHlo.after_of_forall_not_mem _ _ (List.forall_iff_forall_mem.mp (by
    simp only [hostOps0, hostOps0_1, hostOps0_2, hostOps1, hostOps2, hostOps3, hostOps4, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-! ## The arguments, each at the boundary where it is read -/

theorem arg0_at3 (c : Dev nD) : W3 m ρ c (Proc.devRef .tc main_arg0) = m ((c : Thread nD τ).loc main_arg0) := by
  host_step; host_step; host_step; rfl
theorem arg1_at3 (c : Dev nD) : W3 m ρ c (Proc.devRef .tc main_arg1) = m ((c : Thread nD τ).loc main_arg1) := by
  host_step; host_step; host_step; rfl
theorem arg2_at3 (c : Dev nD) : W3 m ρ c (Proc.devRef .tc main_arg2) = m ((c : Thread nD τ).loc main_arg2) := by
  host_step; host_step; host_step; rfl
theorem arg3_at3 (c : Dev nD) : W3 m ρ c (Proc.devRef .tc main_arg3) = m ((c : Thread nD τ).loc main_arg3) := by
  host_step; host_step; host_step; rfl
theorem arg4_at3 (c : Dev nD) : W3 m ρ c (Proc.devRef .tc main_arg4) = m ((c : Thread nD τ).loc main_arg4) := by
  host_step; host_step; host_step; rfl
theorem arg5_at3 (c : Dev nD) : W3 m ρ c (Proc.devRef .tc main_arg5) = m ((c : Thread nD τ).loc main_arg5) := by
  host_step; host_step; host_step; rfl
theorem arg6_at3 (c : Dev nD) : W3 m ρ c (Proc.devRef .tc main_arg6) = m ((c : Thread nD τ).loc main_arg6) := by
  host_step; host_step; host_step; rfl
theorem arg7_at3 (c : Dev nD) : W3 m ρ c (Proc.devRef .tc main_arg7) = m ((c : Thread nD τ).loc main_arg7) := by
  host_step; host_step; host_step; rfl
theorem arg8_at3 (c : Dev nD) : W3 m ρ c (Proc.devRef .tc main_arg8) = m ((c : Thread nD τ).loc main_arg8) := by
  host_step; host_step; host_step; rfl

/-- The first layer's bias, where the second stretch reads it. -/
theorem arg4_at4 (c : Dev nD) : W4 m ρ c (Proc.devRef .tc main_arg4) = m ((c : Thread nD τ).loc main_arg4) :=
  (W4_of_ne m ρ c main_arg4 (by decide)).trans (arg4_at3 m ρ c)

/-- The second layer's weights, where the second region reads them. -/
theorem arg5_at5 (c : Dev nD) : W5 m ρ c (Proc.devRef .tc main_arg5) = m ((c : Thread nD τ).loc main_arg5) := by
  host_step
  exact (W4_of_ne m ρ c main_arg5 (by decide)).trans (arg5_at3 m ρ c)

/-- The second layer's bias, where the third stretch reads it. -/
theorem arg6_at6 (c : Dev nD) : W6 m ρ c (Proc.devRef .tc main_arg6) = m ((c : Thread nD τ).loc main_arg6) := by
  refine (W6_of_ne m ρ c main_arg6 (by decide)).trans ?_
  host_step
  exact (W4_of_ne m ρ c main_arg6 (by decide)).trans (arg6_at3 m ρ c)

/-- The third layer's weights, where the third region reads them. -/
theorem arg7_at7 (c : Dev nD) : W7 m ρ c (Proc.devRef .tc main_arg7) = m ((c : Thread nD τ).loc main_arg7) := by
  host_step
  refine (W6_of_ne m ρ c main_arg7 (by decide)).trans ?_
  host_step
  exact (W4_of_ne m ρ c main_arg7 (by decide)).trans (arg7_at3 m ρ c)

/-- The third layer's bias, where the last stretch reads it. -/
theorem arg8_at8 (c : Dev nD) : W8 m ρ c (Proc.devRef .tc main_arg8) = m ((c : Thread nD τ).loc main_arg8) := by
  refine (W8_of_ne m ρ c main_arg8 (by decide)).trans ?_
  host_step
  refine (W6_of_ne m ρ c main_arg8 (by decide)).trans ?_
  host_step
  exact (W4_of_ne m ρ c main_arg8 (by decide)).trans (arg8_at3 m ρ c)

/-- The labelled pairs, where the last stretch reads them. -/
theorem arg2_at8 (c : Dev nD) : W8 m ρ c (Proc.devRef .tc main_arg2) = m ((c : Thread nD τ).loc main_arg2) := by
  refine (W8_of_ne m ρ c main_arg2 (by decide)).trans ?_
  host_step
  refine (W6_of_ne m ρ c main_arg2 (by decide)).trans ?_
  host_step
  exact (W4_of_ne m ρ c main_arg2 (by decide)).trans (arg2_at3 m ρ c)

/-! ## The edge arrays reach the later stretches as the first region found them -/

theorem src_at4 (c : Dev nD) : W4 m ρ c (Proc.devRef .tc main_v3) = W3 m ρ c (Proc.devRef .tc main_v3) :=
  W4_of_ne m ρ c main_v3 (by decide)
theorem dst_at4 (c : Dev nD) : W4 m ρ c (Proc.devRef .tc main_v6) = W3 m ρ c (Proc.devRef .tc main_v6) :=
  W4_of_ne m ρ c main_v6 (by decide)
theorem norm_at4 (c : Dev nD) : W4 m ρ c (Proc.devRef .tc main_v29) = W3 m ρ c (Proc.devRef .tc main_v29) :=
  W4_of_ne m ρ c main_v29 (by decide)

theorem src_at6 (c : Dev nD) : W6 m ρ c (Proc.devRef .tc main_v3) = W3 m ρ c (Proc.devRef .tc main_v3) := by
  refine (W6_of_ne m ρ c main_v3 (by decide)).trans ?_
  host_step
  exact src_at4 m ρ c
theorem dst_at6 (c : Dev nD) : W6 m ρ c (Proc.devRef .tc main_v6) = W3 m ρ c (Proc.devRef .tc main_v6) := by
  refine (W6_of_ne m ρ c main_v6 (by decide)).trans ?_
  host_step
  exact dst_at4 m ρ c
theorem norm_at6 (c : Dev nD) : W6 m ρ c (Proc.devRef .tc main_v29) = W3 m ρ c (Proc.devRef .tc main_v29) := by
  refine (W6_of_ne m ρ c main_v29 (by decide)).trans ?_
  host_step
  exact norm_at4 m ρ c

theorem src_at8 (c : Dev nD) : W8 m ρ c (Proc.devRef .tc main_v3) = W3 m ρ c (Proc.devRef .tc main_v3) := by
  refine (W8_of_ne m ρ c main_v3 (by decide)).trans ?_
  host_step
  exact src_at6 m ρ c
theorem dst_at8 (c : Dev nD) : W8 m ρ c (Proc.devRef .tc main_v6) = W3 m ρ c (Proc.devRef .tc main_v6) := by
  refine (W8_of_ne m ρ c main_v6 (by decide)).trans ?_
  host_step
  exact dst_at6 m ρ c
theorem norm_at8 (c : Dev nD) : W8 m ρ c (Proc.devRef .tc main_v29) = W3 m ρ c (Proc.devRef .tc main_v29) := by
  refine (W8_of_ne m ρ c main_v29 (by decide)).trans ?_
  host_step
  exact norm_at6 m ρ c

end Cert.KernelIdeal.Boundaries

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.Boundary0.lean ====
/-
  The edge arrays as the first region finds them. Before the first region the program builds, from the edge list alone,
  the source and target arrays with a self loop appended for every node, the in-degrees (a scatter-add of ones), their
  inverse square roots where positive, and the edge weights (the product of the two endpoints' values). The reference
  builds the same arrays by the same operations, so each is the reference's stage of the same name read at the edge list.
  The three stretches before the region are read one at a time: the first from the launch memory, the other two from
  any contents at which the values they read are the reference's.
-/
import proofs.«111414_j50766513439535_1_alg».proof.Proof.Gen.KernelIdeal.Frame
import proofs.«111414_j50766513439535_1_alg».proof.Proof.RefReadPatched
import proofs.«111414_j50766513439535_1_alg».proof.Proof.LibTypedRefs
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundaries

open Cert.KernelIdeal Cert.KernelIdeal.Gen Cert.ReferenceIdeal.ReadP

variable (m : (ℓ : Loc nD τ sig) → Buf (Elt Ideal) ℓ) (ρ : Dev nD → PrngReg)

/-! ## The first stretch, from the launch memory -/

/-- The sources, self loops appended. -/
theorem src_at1 (c : Dev nD) :
    W1 m ρ c (Proc.devRef .tc main_v3) = val_main_v3 (F := Ideal) (m ((c : Thread nD τ).loc main_arg1)) := by
  show after hostOps0 (W0 m ρ c) (Proc.devRef .tc main_v3) = _
  dsimp only [hostOps0]
  after_results_simp
  rfl

/-- The targets, self loops appended. -/
theorem dst_at1 (c : Dev nD) :
    W1 m ρ c (Proc.devRef .tc main_v6) = val_main_v6 (F := Ideal) (m ((c : Thread nD τ).loc main_arg1)) := by
  show after hostOps0 (W0 m ρ c) (Proc.devRef .tc main_v6) = _
  dsimp only [hostOps0]
  after_results_simp
  rfl

/-- Where the in-degree is positive. -/
theorem pos_at1 (c : Dev nD) :
    W1 m ρ c (Proc.devRef .tc main_v12) = val_main_v12 (F := Ideal) (m ((c : Thread nD τ).loc main_arg1)) := by
  show after hostOps0 (W0 m ρ c) (Proc.devRef .tc main_v12) = _
  dsimp only [hostOps0]
  after_results_simp
  rfl

/-- The inverse square roots of the in-degrees. -/
theorem rsqrt_at1 (c : Dev nD) :
    W1 m ρ c (Proc.devRef .tc main_v13) = val_main_v13 (F := Ideal) (m ((c : Thread nD τ).loc main_arg1)) := by
  show after hostOps0 (W0 m ρ c) (Proc.devRef .tc main_v13) = _
  dsimp only [hostOps0]
  after_results_simp
  rfl

/-- The zero the selection falls back to. -/
theorem zero_at1 (c : Dev nD) :
    W1 m ρ c (Proc.devRef .tc main_cst_2) = val_main_cst_2 (F := Ideal) := by
  show after hostOps0 (W0 m ρ c) (Proc.devRef .tc main_cst_2) = _
  dsimp only [hostOps0]
  after_results_simp
  rfl

/-! ## The second stretch (the selection), from any contents -/

section
variable (V : Valuation τ sig (Elt Ideal))

/-- Reading a selection through the typed references of an outlined function changes nothing: the contents are carried
    to each buffer's own type and back. -/
theorem select_through_refs (A : (⟨Cert.ReferenceIdeal.S50000, .i1⟩ : BufTy).Contents (Elt Ideal)) (B : (⟨Cert.ReferenceIdeal.S50000, .f32⟩ : BufTy).Contents (Elt Ideal))
    (Z : (⟨S50000, .f32⟩ : BufTy).Contents (Elt Ideal)) :
    (TRef.of (sig := sig) (T := ⟨S50000, .f32⟩) main_v14).toBuf (Val := Elt Ideal)
      (select ((TRef.of (sig := sig) (T := ⟨S50000, .i1⟩) main_v12).ofBuf (Val := Elt Ideal) A)
        ((TRef.of (sig := sig) (T := ⟨S50000, .f32⟩) main_v13).ofBuf (Val := Elt Ideal) B) Z) = select A B Z := rfl

/-- The zero broadcast over the nodes, read through the outlined function's references. -/
theorem zeros_through_refs :
    broadcastInDim S50000 ![] bcast_S_S50000
      (id ((TRef.of (sig := sig) (T := ⟨S_, .f32⟩) main_cst_2).ofBuf (Val := Elt Ideal) (val_main_cst_2 (F := Ideal))))
      = val_main_call0_v1 (F := Ideal) := by
  unfold val_main_call0_v1 val_main_call0_v0
  rfl

/-- The inverse square root of the in-degree where it is positive, zero elsewhere. -/
theorem where_stage (x1 : (⟨Cert.ReferenceIdeal.S2x600000, .i32⟩ : BufTy).Contents (Elt Ideal))
    (h12 : V (Proc.devRef .tc main_v12) = val_main_v12 (F := Ideal) x1)
    (h13 : V (Proc.devRef .tc main_v13) = val_main_v13 (F := Ideal) x1)
    (hc : V (Proc.devRef .tc main_cst_2) = val_main_cst_2 (F := Ideal)) :
    after hostOps0_1 V (Proc.devRef .tc main_v14) = val_main_v14 (F := Ideal) x1 := by
  dsimp only [hostOps0_1]
  after_results_simp
  simp only [Cert.Lib.TypedRefs.ofBuf_toBuf]
  rw [h12, h13, hc, zeros_through_refs]
  unfold val_main_v14
  exact select_through_refs _ _ _

theorem where_keeps_src : after hostOps0_1 V (Proc.devRef .tc main_v3) = V (Proc.devRef .tc main_v3) := by
  dsimp only [hostOps0_1]
  after_results_simp
theorem where_keeps_dst : after hostOps0_1 V (Proc.devRef .tc main_v6) = V (Proc.devRef .tc main_v6) := by
  dsimp only [hostOps0_1]
  after_results_simp

/-! ## The third stretch (the edge weights), from any contents -/

/-- The edge weights: the selected value at the source times that at the target. -/
theorem weights_stage (x1 : (⟨Cert.ReferenceIdeal.S2x600000, .i32⟩ : BufTy).Contents (Elt Ideal))
    (h14 : V (Proc.devRef .tc main_v14) = val_main_v14 (F := Ideal) x1)
    (h3 : V (Proc.devRef .tc main_v3) = val_main_v3 (F := Ideal) x1)
    (h6 : V (Proc.devRef .tc main_v6) = val_main_v6 (F := Ideal) x1) :
    after hostOps0_2 V (Proc.devRef .tc main_v29) = val_main_v30 (F := Ideal) x1 := by
  dsimp only [hostOps0_2]
  after_results_simp
  rw [h14, h3, h6]
  rfl

theorem weights_keeps_src : after hostOps0_2 V (Proc.devRef .tc main_v3) = V (Proc.devRef .tc main_v3) := by
  dsimp only [hostOps0_2]
  after_results_simp
theorem weights_keeps_dst : after hostOps0_2 V (Proc.devRef .tc main_v6) = V (Proc.devRef .tc main_v6) := by
  dsimp only [hostOps0_2]
  after_results_simp

end

/-! ## At the first region's entry -/

theorem src_at3 (c : Dev nD) :
    W3 m ρ c (Proc.devRef .tc main_v3) = val_main_v3 (F := Ideal) (m ((c : Thread nD τ).loc main_arg1)) :=
  (weights_keeps_src (W2 m ρ c)).trans ((where_keeps_src (W1 m ρ c)).trans (src_at1 m ρ c))

theorem dst_at3 (c : Dev nD) :
    W3 m ρ c (Proc.devRef .tc main_v6) = val_main_v6 (F := Ideal) (m ((c : Thread nD τ).loc main_arg1)) :=
  (weights_keeps_dst (W2 m ρ c)).trans ((where_keeps_dst (W1 m ρ c)).trans (dst_at1 m ρ c))

theorem norm_at3 (c : Dev nD) :
    W3 m ρ c (Proc.devRef .tc main_v29) = val_main_v30 (F := Ideal) (m ((c : Thread nD τ).loc main_arg1)) :=
  weights_stage (W2 m ρ c) _
    (where_stage (W1 m ρ c) _ (pos_at1 m ρ c) (rsqrt_at1 m ρ c) (zero_at1 m ρ c))
    ((where_keeps_src (W1 m ρ c)).trans (src_at1 m ρ c))
    ((where_keeps_dst (W1 m ρ c)).trans (dst_at1 m ρ c))

end Cert.KernelIdeal.Boundaries

end
-- ==== Proof.Stretch1.lean ====
/-
  The first aggregation. Between the first two regions the program gathers the rows of the first layer's linear map at the
  edges' sources, scales each by its edge weight and scatter-adds them into the rows of the targets; it also re-shapes the
  first bias vector into a row. The reference applies the same operations to its own linear map: if the two linear maps and
  the edge arrays agree, so do the aggregated features.
-/
import proofs.«111414_j50766513439535_1_alg».proof.Proof.Gen.KernelIdeal.Frame
import proofs.«111414_j50766513439535_1_alg».proof.Proof.RefReadPatched
import proofs.«111414_j50766513439535_1_alg».proof.Proof.LibTypedRefs
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundaries

open Cert.KernelIdeal Cert.KernelIdeal.Gen Cert.ReferenceIdeal.ReadP

variable (m : (ℓ : Loc nD τ sig) → Buf (Elt Ideal) ℓ) (ρ : Dev nD → PrngReg)

/-- The aggregated features of layer 1. -/
theorem agg_at5 (c : Dev nD) (x0 : (⟨Cert.ReferenceIdeal.S50000x128, .f32⟩ : BufTy).Contents (Elt Ideal)) (x1 : (⟨Cert.ReferenceIdeal.S2x600000, .i32⟩ : BufTy).Contents (Elt Ideal)) (x3 : (⟨Cert.ReferenceIdeal.S128x128, .f32⟩ : BufTy).Contents (Elt Ideal))
    (h30 : W4 m ρ c (Proc.devRef .tc main_v30) = val_main_v15 (F := Ideal) x0 x3)
    (h3 : W4 m ρ c (Proc.devRef .tc main_v3) = val_main_v3 (F := Ideal) x1)
    (h6 : W4 m ρ c (Proc.devRef .tc main_v6) = val_main_v6 (F := Ideal) x1)
    (h29 : W4 m ρ c (Proc.devRef .tc main_v29) = val_main_v30 (F := Ideal) x1) :
    W5 m ρ c (Proc.devRef .tc main_v43) = val_main_v43 (F := Ideal) x0 x1 x3 := by
  show after hostOps1 (W4 m ρ c) (Proc.devRef .tc main_v43) = _
  dsimp only [hostOps1]
  after_results_simp
  rw [h30, h3, h6, h29]
  rfl

/-- The first bias vector as a row. -/
theorem biasrow_at5 (c : Dev nD) :
    W5 m ρ c (Proc.devRef .tc main_v44)
      = shapeCast S1x128 (W4 m ρ c (Proc.devRef .tc main_arg4)) shapeCasts_S128_S1x128 := by
  show after hostOps1 (W4 m ρ c) (Proc.devRef .tc main_v44) = _
  dsimp only [hostOps1]
  after_results
  rfl

end Cert.KernelIdeal.Boundaries

end
-- ==== Proof.Stretch2.lean ====
/-
  The second aggregation. Between the second and third regions the program gathers the rows of the second layer's linear
  map at the edges' sources, scales each by its edge weight and scatter-adds them into the rows of the targets; it also
  re-shapes the second bias vector into a row. The reference applies the same operations to its own linear map.
-/
import proofs.«111414_j50766513439535_1_alg».proof.Proof.Gen.KernelIdeal.Frame
import proofs.«111414_j50766513439535_1_alg».proof.Proof.RefReadPatched
import proofs.«111414_j50766513439535_1_alg».proof.Proof.LibTypedRefs
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundaries

open Cert.KernelIdeal Cert.KernelIdeal.Gen Cert.ReferenceIdeal.ReadP

variable (m : (ℓ : Loc nD τ sig) → Buf (Elt Ideal) ℓ) (ρ : Dev nD → PrngReg)

/-- The aggregated features of layer 2. -/
theorem agg_at7 (c : Dev nD) (x0 : (⟨Cert.ReferenceIdeal.S50000x128, .f32⟩ : BufTy).Contents (Elt Ideal)) (x1 : (⟨Cert.ReferenceIdeal.S2x600000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (h45 : W6 m ρ c (Proc.devRef .tc main_v45) = val_main_v48 (F := Ideal) x0 x1 x3 x4 x5)
    (h3 : W6 m ρ c (Proc.devRef .tc main_v3) = val_main_v3 (F := Ideal) x1)
    (h6 : W6 m ρ c (Proc.devRef .tc main_v6) = val_main_v6 (F := Ideal) x1)
    (h29 : W6 m ρ c (Proc.devRef .tc main_v29) = val_main_v63 (F := Ideal) x1) :
    W7 m ρ c (Proc.devRef .tc main_v58) = val_main_v76 (F := Ideal) x0 x1 x3 x4 x5 := by
  show after hostOps2 (W6 m ρ c) (Proc.devRef .tc main_v58) = _
  dsimp only [hostOps2]
  after_results_simp
  rw [h45, h3, h6, h29]
  rfl

/-- The second bias vector as a row. -/
theorem biasrow_at7 (c : Dev nD) :
    W7 m ρ c (Proc.devRef .tc main_v59)
      = shapeCast S1x128 (W6 m ρ c (Proc.devRef .tc main_arg6)) shapeCasts_S128_S1x128 := by
  show after hostOps2 (W6 m ρ c) (Proc.devRef .tc main_v59) = _
  dsimp only [hostOps2]
  after_results
  rfl

end Cert.KernelIdeal.Boundaries

end
-- ==== Proof.Stretch3.lean ====
/-
  The third aggregation and the decoder's gathers. Between the third and fourth regions the program aggregates the third
  layer's linear map along the edges, adds the third bias to every row, and gathers the rows of the result at the two
  endpoints of every labelled pair. After the fourth region it re-shapes the column of scores into a vector. The
  reference applies the same operations to its own linear map.
-/
import proofs.«111414_j50766513439535_1_alg».proof.Proof.Gen.KernelIdeal.Frame
import proofs.«111414_j50766513439535_1_alg».proof.Proof.RefReadPatched
import proofs.«111414_j50766513439535_1_alg».proof.Proof.LibTypedRefs
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundaries

open Cert.KernelIdeal Cert.KernelIdeal.Gen Cert.ReferenceIdeal.ReadP

variable (m : (ℓ : Loc nD τ sig) → Buf (Elt Ideal) ℓ) (ρ : Dev nD → PrngReg)

/-- The embeddings at the labelled pairs' first endpoints. -/
theorem first_at9 (c : Dev nD) (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S2x200000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (h60 : W8 m ρ c (Proc.devRef .tc main_v60) = val_main_v81 (F := Ideal) x0 x1 x3 x4 x5 x6 x7)
    (h3 : W8 m ρ c (Proc.devRef .tc main_v3) = val_main_v3 (F := Ideal) x1)
    (h6 : W8 m ρ c (Proc.devRef .tc main_v6) = val_main_v6 (F := Ideal) x1)
    (h29 : W8 m ρ c (Proc.devRef .tc main_v29) = val_main_v96 (F := Ideal) x1)
    (h8 : W8 m ρ c (Proc.devRef .tc main_arg8) = x8)
    (h2 : W8 m ρ c (Proc.devRef .tc main_arg2) = x2) :
    W9 m ρ c (Proc.devRef .tc main_v85) = val_main_v121 (F := Ideal) x0 x1 x2 x3 x4 x5 x6 x7 x8 := by
  show after hostOps3 (W8 m ρ c) (Proc.devRef .tc main_v85) = _
  dsimp only [hostOps3]
  after_results_simp
  rw [h60, h3, h6, h29, h8, h2]
  rfl

/-- The embeddings at the labelled pairs' second endpoints. -/
theorem second_at9 (c : Dev nD) (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S2x200000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (h60 : W8 m ρ c (Proc.devRef .tc main_v60) = val_main_v81 (F := Ideal) x0 x1 x3 x4 x5 x6 x7)
    (h3 : W8 m ρ c (Proc.devRef .tc main_v3) = val_main_v3 (F := Ideal) x1)
    (h6 : W8 m ρ c (Proc.devRef .tc main_v6) = val_main_v6 (F := Ideal) x1)
    (h29 : W8 m ρ c (Proc.devRef .tc main_v29) = val_main_v96 (F := Ideal) x1)
    (h8 : W8 m ρ c (Proc.devRef .tc main_arg8) = x8)
    (h2 : W8 m ρ c (Proc.devRef .tc main_arg2) = x2) :
    W9 m ρ c (Proc.devRef .tc main_v94) = val_main_v130 (F := Ideal) x0 x1 x2 x3 x4 x5 x6 x7 x8 := by
  show after hostOps3 (W8 m ρ c) (Proc.devRef .tc main_v94) = _
  dsimp only [hostOps3]
  after_results_simp
  rw [h60, h3, h6, h29, h8, h2]
  rfl

/-- The result: the column of scores as a vector. -/
theorem result_at11 (c : Dev nD) :
    W11 m ρ c (Proc.devRef .tc main_v96)
      = shapeCast S200000 (W10 m ρ c (Proc.devRef .tc main_v95)) shapeCasts_S200000x1_S200000 := by
  show after hostOps4 (W10 m ρ c) (Proc.devRef .tc main_v96) = _
  dsimp only [hostOps4]
  after_results
  rfl

end Cert.KernelIdeal.Boundaries

end
-- ==== Proof.RefLayers.lean ====
/-
  The reference's three linear maps on the extended reals. The reference multiplies the whole feature array by a weight
  matrix (its dot_general is the plain matrix product), for layers two and three after adding the previous bias to
  every row and clamping below at zero (its broadcasts of the bias vector and its maximum with a broadcast zero are the
  row-wise bias-and-clamp function).
-/
import proofs.«111414_j50766513439535_1_alg».proof.Proof.RefReadPatched
import proofs.«111414_j50766513439535_1_alg».proof.Proof.LibMatProd
import proofs.«111414_j50766513439535_1_alg».proof.Proof.LibBiasRelu
import proofs.«111414_j50766513439535_1_alg».proof.Proof.LibRowVector

noncomputable section

open Idealize.ShloMosaic Idealize.ShloMosaic.ValueIdx
open Cert.Lib.MatProd Cert.Lib.BiasRelu Cert.Lib.RowVector

namespace Cert.ReferenceIdeal.Layers

open Cert.ReferenceIdeal Cert.ReferenceIdeal.ReadP

/-- Layer one's linear map is the product of the features with the first weight matrix. -/
theorem linear1 (x0 : (⟨Cert.ReferenceIdeal.S50000x128, .f32⟩ : BufTy).Contents (Elt Ideal)) (x3 : (⟨Cert.ReferenceIdeal.S128x128, .f32⟩ : BufTy).Contents (Elt Ideal)) :
    val_main_v15 (F := Ideal) x0 x3 = matProd x0 x3 := by
  unfold val_main_v15
  exact dotGeneral_eq_matProd dot_S50000x128_S128x128_S50000x128_1_0_0_1_n_n rfl rfl rfl rfl rfl rfl none _ x0 x3

/-- Layer two's linear map: the first bias added to every row of the first aggregation, clamped below at zero, times
    the second weight matrix. -/
theorem linear2 (x0 : (⟨Cert.ReferenceIdeal.S50000x128, .f32⟩ : BufTy).Contents (Elt Ideal)) (x1 : (⟨Cert.ReferenceIdeal.S2x600000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal)) :
    val_main_v48 (F := Ideal) x0 x1 x3 x4 x5
      = matProd (biasRelu (val_main_v43 (F := Ideal) x0 x1 x3) (asRow x4)) x5 := by
  unfold val_main_v48
  refine (dotGeneral_eq_matProd dot_S50000x128_S128x128_S50000x128_1_0_0_1_n_n rfl rfl rfl rfl rfl rfl none _ _ x5).trans ?_
  refine congrArg (fun z => matProd z x5) ?_
  unfold val_main_v47 val_main_v46 val_main_v45 val_main_v44 val_main_call1_v0 val_main_call1_cst
  exact host_eq _ x4 _ _ _

/-- Layer three's linear map: the second bias added to every row of the second aggregation, clamped below at zero,
    times the third weight matrix. -/
theorem linear3 (x0 : (⟨Cert.ReferenceIdeal.S50000x128, .f32⟩ : BufTy).Contents (Elt Ideal)) (x1 : (⟨Cert.ReferenceIdeal.S2x600000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x64, .f32⟩ : BufTy).Contents (Elt Ideal)) :
    val_main_v81 (F := Ideal) x0 x1 x3 x4 x5 x6 x7
      = matProd (biasRelu (val_main_v76 (F := Ideal) x0 x1 x3 x4 x5) (asRow x6)) x7 := by
  unfold val_main_v81
  refine (dotGeneral_eq_matProd dot_S50000x128_S128x64_S50000x64_1_0_0_1_n_n rfl rfl rfl rfl rfl rfl none _ _ x7).trans ?_
  refine congrArg (fun z => matProd z x7) ?_
  unfold val_main_v80 val_main_v79 val_main_v78 val_main_v77 val_main_call2_v0 val_main_call2_cst
  exact host_eq _ x6 _ _ _

/-- The edge weights are computed three times by the reference, by the same operations of the edge list. -/
theorem weights2 (x1 : (⟨Cert.ReferenceIdeal.S2x600000, .i32⟩ : BufTy).Contents (Elt Ideal)) : val_main_v63 (F := Ideal) x1 = val_main_v30 (F := Ideal) x1 := rfl
theorem weights3 (x1 : (⟨Cert.ReferenceIdeal.S2x600000, .i32⟩ : BufTy).Contents (Elt Ideal)) : val_main_v96 (F := Ideal) x1 = val_main_v30 (F := Ideal) x1 := rfl

end Cert.ReferenceIdeal.Layers

end
-- ==== Proof.KernelValue.lean ====
/-
  The idealized kernel's result as a function of its arguments. Boundary by boundary: the first region leaves the product
  of the features with the first weights, which is the reference's first linear map; the stretch after it aggregates that
  along the edges exactly as the reference does; the second and third regions leave the next layers' linear maps of the
  aggregated features (bias added, clamped below at zero, times the weights), again the reference's; the last stretch
  aggregates, adds the last bias and gathers the embeddings at the labelled pairs' endpoints; the fourth region leaves the
  row inner products of the two gathered arrays, which re-shaped to a vector are the reference's row sums of their
  entrywise product. No step uses more than the order-independence of sums on the extended reals.
-/
import proofs.«111414_j50766513439535_1_alg».proof.Proof.Region0
import proofs.«111414_j50766513439535_1_alg».proof.Proof.Region1
import proofs.«111414_j50766513439535_1_alg».proof.Proof.Region2
import proofs.«111414_j50766513439535_1_alg».proof.Proof.DecodeBlocks
import proofs.«111414_j50766513439535_1_alg».proof.Proof.DecodeReference
import proofs.«111414_j50766513439535_1_alg».proof.Proof.Carry
import proofs.«111414_j50766513439535_1_alg».proof.Proof.Boundary0
import proofs.«111414_j50766513439535_1_alg».proof.Proof.Stretch1
import proofs.«111414_j50766513439535_1_alg».proof.Proof.Stretch2
import proofs.«111414_j50766513439535_1_alg».proof.Proof.Stretch3
import proofs.«111414_j50766513439535_1_alg».proof.Proof.RefLayers

set_option maxRecDepth 16384

noncomputable section

open Idealize.ShloMosaic Idealize.ShloMosaic.TcCoe Idealize.SL.Sem Idealize.ShloMosaic.ValueIdx
open Cert.Lib.MatProd Cert.Lib.BiasRelu Cert.Lib.RowVector

namespace Cert.KernelIdeal.Boundaries

open Cert.KernelIdeal Cert.KernelIdeal.Gen Cert.KernelIdeal.Layers Cert.KernelIdeal.Decode
open Cert.ReferenceIdeal.ReadP Cert.ReferenceIdeal.Layers

variable (m : (ℓ : Loc nD τ sig) → Buf (Elt Ideal) ℓ) (ρ : Dev nD → PrngReg)

/-- After the first region: the first linear map. -/
theorem lin1_at4 (c : Dev nD) :
    W4 m ρ c (Proc.devRef .tc main_v30) = val_main_v15 (F := Ideal) (m ((c : Thread nD τ).loc main_arg0)) (m ((c : Thread nD τ).loc main_arg3)) := by
  refine (W4_arr m ρ c 2).trans ?_
  refine (region0_value (V3 m ρ) c).trans ?_
  rw [linear1]
  exact congrArg₂ (matProd (m := 50000) (k := 128) (n := 128)) (arg0_at3 m ρ c) (arg3_at3 m ρ c)

/-- Before the second region: the first aggregation. -/
theorem agg1_at5 (c : Dev nD) :
    W5 m ρ c (Proc.devRef .tc main_v43) = val_main_v43 (F := Ideal) (m ((c : Thread nD τ).loc main_arg0)) (m ((c : Thread nD τ).loc main_arg1)) (m ((c : Thread nD τ).loc main_arg3)) :=
  agg_at5 m ρ c _ _ _ (lin1_at4 m ρ c) ((src_at4 m ρ c).trans (src_at3 m ρ c)) ((dst_at4 m ρ c).trans (dst_at3 m ρ c))
    ((norm_at4 m ρ c).trans (norm_at3 m ρ c))

/-- After the second region: the second linear map. -/
theorem lin2_at6 (c : Dev nD) :
    W6 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ?_
  refine (region1_value (V5 m ρ) c).trans ?_
  rw [linear2]
  refine congrArg₂ (matProd (m := 50000) (k := 128) (n := 128))
    (congrArg₂ (biasRelu (n := 50000) (k := 128)) (agg1_at5 m ρ c) ?_) (arg5_at5 m ρ c)
  exact (biasrow_at5 m ρ c).trans ((congrArg (fun z => shapeCast S1x128 z shapeCasts_S128_S1x128) (arg4_at4 m ρ c)).trans
    (shapeCast_eq_asRow _ _))

/-- Before the third region: the second aggregation. -/
theorem agg2_at7 (c : Dev nD) :
    W7 m ρ c (Proc.devRef .tc main_v58) = val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  agg_at7 m ρ c _ _ _ _ _ (lin2_at6 m ρ c) ((src_at6 m ρ c).trans (src_at3 m ρ c)) ((dst_at6 m ρ c).trans (dst_at3 m ρ c))
    (((norm_at6 m ρ c).trans (norm_at3 m ρ c)).trans (weights2 _).symm)

/-- After the third region: the third linear map. -/
theorem lin3_at8 (c : Dev nD) :
    W8 m ρ c (Proc.devRef .tc main_v60)
      = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ?_
  refine (region2_value (V7 m ρ) c).trans ?_
  rw [linear3]
  refine congrArg₂ (matProd (m := 50000) (k := 128) (n := 64))
    (congrArg₂ (biasRelu (n := 50000) (k := 128)) (agg2_at7 m ρ c) ?_) (arg7_at7 m ρ c)
  exact (biasrow_at7 m ρ c).trans ((congrArg (fun z => shapeCast S1x128 z shapeCasts_S128_S1x128) (arg6_at6 m ρ c)).trans
    (shapeCast_eq_asRow _ _))

/-- The program's result, on every core: the reference's last stage read at the launch contents of the arguments. -/
theorem result_value (c : Dev nD) :
    W11 m ρ c (Proc.devRef .tc main_v96)
      = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hw : W8 m ρ c (Proc.devRef .tc main_v29) = val_main_v96 (F := Ideal) (m ((c : Thread nD τ).loc main_arg1)) :=
    ((norm_at8 m ρ c).trans (norm_at3 m ρ c)).trans (weights3 _).symm
  have h85 := first_at9 m ρ c _ _ _ _ _ _ _ _ _ (lin3_at8 m ρ c) ((src_at8 m ρ c).trans (src_at3 m ρ c))
    ((dst_at8 m ρ c).trans (dst_at3 m ρ c)) hw (arg8_at8 m ρ c) (arg2_at8 m ρ c)
  have h94 := second_at9 m ρ c _ _ _ _ _ _ _ _ _ (lin3_at8 m ρ c) ((src_at8 m ρ c).trans (src_at3 m ρ c))
    ((dst_at8 m ρ c).trans (dst_at3 m ρ c)) hw (arg8_at8 m ρ c) (arg2_at8 m ρ c)
  have h95 : W10 m ρ c (Proc.devRef .tc main_v95)
      = rowDot (val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
          (val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
    (W10_arr m ρ c 2).trans ((region3_value (V9 m ρ) c).trans (congrArg₂ rowDot h85 h94))
  refine (result_at11 m ρ c).trans ?_
  rw [h95]
  unfold val_main_v132 val_main_v131 val_main_cst_27
  exact (host_rowDot _ _).symm

end Cert.KernelIdeal.Boundaries

end
-- ==== Proof.lean ====
/-
  The certificate of the graph-convolution link predictor. The kernel program runs three pipelined matrix products and a
  pipelined row-wise inner product among stretches of host operations (gathers along the edges, scatter-adds into the
  target nodes, bias additions, the decoder's gathers); the reference runs the same host operations around whole-array
  matrix products and a row sum. On the extended reals a block of rows of a product is the same rows of the whole
  product, rounding to bf16 is the identity, and sums are independent of order, so the two programs compute one function
  of the arguments, stage by stage: the kernel's result at every boundary is the reference's stage of the same
  operations. The three frames are the generated ones (the reference's is its run with the result dropped); the ideal
  pass rewrote nothing, so the idealization claim is trivial.
-/
import proofs.«111414_j50766513439535_1_alg».proof.Defs
import proofs.«111414_j50766513439535_1_alg».proof.Proof.Gen.Kernel
import proofs.«111414_j50766513439535_1_alg».proof.Proof.Gen.Kernel.Skeleton
import proofs.«111414_j50766513439535_1_alg».proof.Proof.Gen.Kernel.Launch
import proofs.«111414_j50766513439535_1_alg».proof.Proof.Gen.Kernel.Points
import proofs.«111414_j50766513439535_1_alg».proof.Proof.Gen.Kernel.Frame
import proofs.«111414_j50766513439535_1_alg».proof.Proof.Gen.KernelIdeal
import proofs.«111414_j50766513439535_1_alg».proof.Proof.Gen.KernelIdeal.Skeleton
import proofs.«111414_j50766513439535_1_alg».proof.Proof.Gen.KernelIdeal.Launch
import proofs.«111414_j50766513439535_1_alg».proof.Proof.Gen.KernelIdeal.Points
import proofs.«111414_j50766513439535_1_alg».proof.Proof.Gen.KernelIdeal.Frame
import proofs.«111414_j50766513439535_1_alg».proof.Proof.Gen.ReferenceIdeal
import proofs.«111414_j50766513439535_1_alg».proof.Proof.Gen.Pre_finite_inputs
import proofs.«111414_j50766513439535_1_alg».proof.Proof.RefReadPatched
import proofs.«111414_j50766513439535_1_alg».proof.Proof.KernelRun
import proofs.«111414_j50766513439535_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the reference's last stage read at the arguments:
    the kernel by its boundaries' contents, the reference by its run. -/
theorem algebraic : Cert.algebraic_KernelIdeal_ReferenceIdeal := by
  intro m ρ m' ρ' _ hagree
  refine ⟨fun c => Cert.KernelIdeal.Gen.W11 m ρ c (Proc.devRef .tc Cert.KernelIdeal.main_v96),
    Cert.KernelIdeal.Hand.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [Cert.ReferenceIdeal.ReadP.val_main_v132_eq]
  show _ = Cert.KernelIdeal.Gen.W11 m ρ c (Proc.devRef .tc Cert.KernelIdeal.main_v96)
  rw [Cert.KernelIdeal.Boundaries.result_value, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
